-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64 .f32) (main_arg10 : FVec F S64x128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S64x128 .f32) (main_arg9 : FVec F S64 .f32) (main_arg10 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S64x128 .f32) (main_arg9 : FVec F S64 .f32) (main_arg10 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S1x128 : Shape := ⟨2, ![1, 128]⟩
abbrev S50000x64 : Shape := ⟨2, ![50000, 64]⟩
abbrev S5000x64 : Shape := ⟨2, ![5000, 64]⟩
abbrev S128x64 : Shape := ⟨2, ![128, 64]⟩
abbrev S1x64 : Shape := ⟨2, ![1, 64]⟩

abbrev nBuf : Space → Nat
  | .hbm => 76
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S64x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S64x128, .f32⟩
  | .local _ .vmem, ⟨23, _⟩ => ⟨S64, .f32⟩
  | .local _ .vmem, ⟨24, _⟩ => ⟨S64x128, .f32⟩
  | .local _ .vmem, ⟨25, _⟩ => ⟨S5000x64, .f32⟩
  | .local _ .vmem, ⟨26, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 103
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S64x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S128x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S128x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S128x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S128x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S128x64, .f32⟩
  | .hbm, ⟨96, _⟩ => ⟨S50000x64, .f32⟩
  | .hbm, ⟨97, _⟩ => ⟨S1x64, .f32⟩
  | .hbm, ⟨98, _⟩ => ⟨S50000x64, .f32⟩
  | .hbm, ⟨99, _⟩ => ⟨S50000x64, .f32⟩
  | .hbm, ⟨100, _⟩ => ⟨S128x64, .f32⟩
  | .hbm, ⟨101, _⟩ => ⟨S50000x64, .f32⟩
  | .hbm, ⟨102, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_cst : Ref sig .tc := ⟨.hbm, 51, rfl⟩
abbrev main_call0_v0 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_c_8 : Ref sig .tc := ⟨.hbm, 80, rfl⟩
abbrev main_v55 : Ref sig .tc := ⟨.hbm, 81, rfl⟩
abbrev main_v56 : Ref sig .tc := ⟨.hbm, 82, rfl⟩
abbrev main_c_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_10 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result array named. The program is three pipelined regions among stretches of
  host operations; at each boundary the TensorCore's buffers hold a fold of what came before (the host operations'
  results, each region's arrays at what its write-backs leave). Here the run is stated with the returned array at the
  last fold's contents and every argument as launched: what the last region writes is read off that fold elsewhere.
-/
import proofs.«143965_j4028679324281_1_alg».proof.Proof.KernelIdealFrameP

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the returned array ends at the last
    boundary's contents and the argument arrays as launched. -/
theorem run_main : θ_run defs (onTc (τ := τ) (main (F := F))) ⟨m, fun _ => 0, ρ⟩ (fun r => ∀ c : Dev nD,
      r.2.mem ((c.tc : Thread nD τ).loc main_v51) = W6 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v51 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Run

end
-- ==== Proof.LibDense.lean ====
/-
  A dense layer and a three-layer perceptron, read one output at a time over the extended reals.

  A plain product of an M×K by a K×N array into a zero accumulator is, at row r and column c, the sum over k of
  lhs (r, k) · rhs (k, c) (plain_matmul_apply); a column [M,1] stretched along the second axis reads its row's one
  entry (broadcast_col_apply). So a dense layer on a tile of T columns — the product of the weights with the tile plus
  the stretched bias — reads, in column q, the weights applied to column q alone (dense_apply): a tile's width and
  position never enter. Three such layers with a maximum against a zero after the first two are, column by column, the
  scalar function mlpAt of that column (mlpTile_apply), whatever the width of the tile and whatever formats the arrays
  are held in (a change of format is the identity on the extended reals). mlpOut is the same function laid out batch
  major: row n of the result is mlpAt of row n of the input. No program is mentioned here.
-/
import Idealize.ShloMosaic.PureOps.Ideal.Laws
import Idealize.ShloMosaic.Lib.ValueIdx
import Idealize.ShloMosaic.Lib.Pipeline.Value

noncomputable section

open scoped BigOperators

namespace LibDense

open Idealize.ShloMosaic Idealize.ShloMosaic.ValueIdx

/-- A plain M×K by K×N product into the zero accumulator, at (r, c): the sum over k of lhs (r, k) · rhs (k, c). -/
theorem plain_matmul_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    matmul d prec lhs rhs (constant ⟨2, ![M, N]⟩ .f32 0x00000000#32) (ix2 r c)
      = ∑ k : Fin K, lhs (ix2 r k) * rhs (ix2 k c) := by
  subst hd
  refine (Ideal.matmul_constant_zero_apply (DotDims.plain M K N) prec lhs rhs (ix2 r c)).trans ?_
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hl : (DotDims.plain M K N).lhsIdx (ix2 r c) ((contrEquiv1 (DotDims.plain M K N) K hr hs).symm k) = ix2 r k := by
    funext a
    apply Fin.ext
    match a with
    | ⟨0, _⟩ => rfl
    | ⟨1, _⟩ =>
      exact ((DotDims.plain M K N).lhsIdx_val_of_single (cl := (1 : Fin 2)) rfl _ _).trans
        (contrEquiv1_symm_val _ K hr hs k)
  have hrr : (DotDims.plain M K N).rhsIdx (ix2 r c) ((contrEquiv1 (DotDims.plain M K N) K hr hs).symm k) = ix2 k c := by
    funext a
    apply Fin.ext
    match a with
    | ⟨0, _⟩ =>
      exact ((DotDims.plain M K N).rhsIdx_val_of_single (cr := (0 : Fin 2)) rfl _ _).trans
        (contrEquiv1_symm_val _ K hr hs k)
    | ⟨1, _⟩ => rfl
  rw [hl, hrr]

/-- A column [M,1] stretched to [M,N] reads, at (r, c), the column's entry of row r. -/
theorem broadcast_col_apply {M N : ℕ} {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- One output of a dense layer: row r of the weights applied to the vector h, plus the bias of row r. -/
def denseAt {M K : ℕ} (w : (⟨2, ![M, K]⟩ : Shape).Idx → EReal) (b : (⟨2, ![M, 1]⟩ : Shape).Idx → EReal)
    (h : Fin K → EReal) (r : Fin M) : EReal :=
  (∑ k : Fin K, w (ix2 r k) * h k) + b (ix2 r (0 : Fin 1))

/-- A dense layer on a tile of T columns, read at (r, q): the layer's output r on column q of the tile. -/
theorem dense_apply {M K T : ℕ} {φ₁ φ₂ φ₃ : FTy} (d : DotDims ⟨2, ![M, K]⟩ ⟨2, ![K, T]⟩ ⟨2, ![M, T]⟩)
    (hd : d = DotDims.plain M K T) (hb : (⟨2, ![M, 1]⟩ : Shape).Broadcasts ⟨2, ![M, T]⟩)
    (w : FVec Ideal ⟨2, ![M, K]⟩ φ₁) (b : FVec Ideal ⟨2, ![M, 1]⟩ φ₃) (h : FVec Ideal ⟨2, ![K, T]⟩ φ₂)
    (r : Fin M) (q : Fin T) :
    matmul d none w h (constant ⟨2, ![M, T]⟩ .f32 0x00000000#32) (ix2 r q) + broadcastTo ⟨2, ![M, T]⟩ b hb (ix2 r q)
      = denseAt w b (fun k => h (ix2 k q)) r := by
  rw [plain_matmul_apply d hd, broadcast_col_apply]
  rfl

/-- The three-layer perceptron on one input vector x, output c: dense, maximum with zero, dense, maximum with zero, dense. -/
def mlpAt {D0 D1 D2 D3 : ℕ} (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (x : Fin D0 → EReal) (c : Fin D3) : EReal :=
  denseAt w3 b3 (fun k => max (denseAt w2 b2 (fun j => max (denseAt w1 b1 x j) 0) k) 0) c

/-- The perceptron on a feature-major tile of T columns as vector operations compute it: each layer a plain product into
    a zero accumulator plus the stretched bias, the first two followed by a maximum against a splat z. -/
def mlpTile {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, T]⟩ : Shape).Idx → EReal :=
  let h1 : FVec Ideal ⟨2, ![D1, T]⟩ .f32 :=
    maximumf (addf (matmul (φ₁ := .f32) (φ₂ := .f32) d1 none w1 x (constant ⟨2, ![D1, T]⟩ .f32 0x00000000#32)) (broadcastTo ⟨2, ![D1, T]⟩ b1 hb1))
      (broadcast ⟨2, ![D1, T]⟩ z1)
  let h2 : FVec Ideal ⟨2, ![D2, T]⟩ .f32 :=
    maximumf (addf (matmul (φ₁ := .f32) (φ₂ := .f32) d2 none w2 h1 (constant ⟨2, ![D2, T]⟩ .f32 0x00000000#32)) (broadcastTo ⟨2, ![D2, T]⟩ b2 hb2))
      (broadcast ⟨2, ![D2, T]⟩ z2)
  addf (φ := .f32) (matmul (φ₁ := .f32) (φ₂ := .f32) d3 none w3 h2 (constant ⟨2, ![D3, T]⟩ .f32 0x00000000#32)) (broadcastTo ⟨2, ![D3, T]⟩ b3 hb3)

/-- Column by column the tile computation is the scalar perceptron of that column: the tile's width never enters. -/
theorem mlpTile_apply {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hd1 : d1 = DotDims.plain D1 D0 T) (hd2 : d2 = DotDims.plain D2 D1 T) (hd3 : d3 = DotDims.plain D3 D2 T)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal) (hz1 : z1 = 0) (hz2 : z2 = 0)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (c : Fin D3) (q : Fin T) :
    mlpTile d1 d2 d3 hb1 hb2 hb3 z1 z2 x w1 b1 w2 b2 w3 b3 (ix2 c q)
      = mlpAt w1 b1 w2 b2 w3 b3 (fun i => x (ix2 i q)) c := by
  subst hz1 hz2
  unfold mlpTile mlpAt
  rw [addf_apply]
  refine (dense_apply (φ₁ := .f32) (φ₂ := .f32) (φ₃ := .f32) d3 hd3 hb3 w3 b3 _ c q).trans ?_
  refine congrArg (fun f => denseAt w3 b3 f c) (funext fun k => ?_)
  rw [maximumf_apply, addf_apply, broadcast_apply]
  refine congrArg (fun v => max v 0) ?_
  refine (dense_apply (φ₁ := .f32) (φ₂ := .f32) (φ₃ := .f32) d2 hd2 hb2 w2 b2 _ k q).trans ?_
  refine congrArg (fun f => denseAt w2 b2 f k) (funext fun j => ?_)
  rw [maximumf_apply, addf_apply, broadcast_apply]
  refine congrArg (fun v => max v 0) ?_
  exact dense_apply (φ₁ := .f32) (φ₂ := .f32) (φ₃ := .f32) d1 hd1 hb1 w1 b1 x j q

/-- The perceptron batch major: row n of the result is the scalar perceptron of row n of the input. -/
def mlpOut {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![B, D3]⟩ : Shape).Idx → EReal :=
  fun i => mlpAt w1 b1 w2 b2 w3 b3 (fun k => x (ix2 (i 0 : Fin B) k)) (i 1 : Fin D3)

theorem mlpOut_apply {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (n : Fin B) (c : Fin D3) :
    mlpOut x w1 b1 w2 b2 w3 b3 (ix2 n c) = mlpAt w1 b1 w2 b2 w3 b3 (fun k => x (ix2 n k)) c := rfl

/-- The perceptron feature major: column n of the result is the scalar perceptron of column n of the input. -/
def mlpOutT {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, B]⟩ : Shape).Idx → EReal :=
  fun i => mlpAt w1 b1 w2 b2 w3 b3 (fun k => xT (ix2 k (i 1 : Fin B))) (i 0 : Fin D3)

theorem mlpOutT_apply {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (c : Fin D3) (n : Fin B) :
    mlpOutT xT w1 b1 w2 b2 w3 b3 (ix2 c n) = mlpAt w1 b1 w2 b2 w3 b3 (fun k => xT (ix2 k n)) c := rfl

/-- The word of all zero bits denotes zero in the sixteen-bit format too. -/
theorem ofBits_zero_bf16 : Ideal.ofBits .bf16 0x0000#16 = 0 := by simp [Ideal.ofBits, Ideal.ieee]

end LibDense

end
-- ==== Proof.LibKeepdims.lean ====
/-
  Layout operations of small shapes read at an index, for row-wise reductions kept as a column and for a vector used as a
  one-row matrix; the float word of minus infinity; the host's exponential and logarithm at an index.

  A row-wise reduction of an `a × b` array (a maximum, a sum) is a vector of `a` entries; to combine it with the array again it
  is cast or broadcast to a column `a × 1` and the column is broadcast along the rows to `a × b`. Read at (p, c), each of these
  is the vector's entry `p`. A vector of `n` entries reshaped to a one-row matrix `1 × n` is the same as the vector broadcast
  along axis 1 of that shape. None of this depends on a program.
-/
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

/-! ## A column of row values: the keepdims cast and its broadcast along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast in dimension 0 to `[a, 1]` reads, at `(i, u)`, the operand at `i`. -/
theorem broadcastInDim_a_a1_apply {a : ℕ} (hbc : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hbc x (ix2 i u) = x (ix1 i) := by
  refine broadcastInDim_apply ![0] hbc x (ix2 i u) (ix1 i) fun ax => ?_
  match ax with
  | ⟨0, _⟩ =>
    show i.val = if a = 1 then 0 else i.val
    split
    · have := i.isLt; omega
    · rfl

/-- An `[a, 1]` array broadcast in dimensions (0, 1) to `[a, b]` reads, at `(p, c)`, the operand's one column at row `p`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A vector as a one-row matrix -/

/-- A vector of `n` entries reshaped to one row is the vector broadcast along axis 1 of a one-row matrix. -/
theorem reshape_row_eq_broadcast {n : Nat} (x : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨a, b, rfl⟩ : ∃ (a : Fin 1) (b : Fin n), i = ix2 a b := ⟨i 0, i 1, eq_ix2 i⟩
  have e1 := shapeCast_apply x h (ix2 a b) (ix1 b) (by
    rw [Shape.rowMajor_val_two, Shape.rowMajor_val_one]
    have := a.isLt
    show b.val = a.val * n + b.val
    have : a.val = 0 := by omega
    rw [this]; omega)
  have e2 := broadcastInDim_apply ![1] h' x (ix2 a b) (ix1 b) (by
    intro d
    match d with
    | ⟨0, _⟩ =>
      show b.val = if n = 1 then 0 else b.val
      split
      · have := b.isLt; omega
      · rfl)
  exact e1.trans e2.symm

/-! ## Values on the extended reals -/

/-- The word of `−∞` at f32 is the extended reals' bottom. -/
theorem ofBits_negInf_f32 : Ideal.ofBits .f32 0xFF800000#32 = ⊥ := by simp [Ideal.ofBits, Ideal.ieee]

/-- The host's exponential of an array at an index is the exponential of the entry. -/
theorem hostExp_apply {s : Shape} (v : FVec Ideal s .f32) (i : s.Idx) : Host.exp v i = Ideal.exp (v i) := rfl

/-- The host's logarithm of an array at an index is the logarithm of the entry. -/
theorem hostLog_apply {s : Shape} (v : FVec Ideal s .f32) (i : s.Idx) : Host.log v i = Ideal.log (v i) := rfl

end Cert.Gcn

end
-- ==== Proof.LibSage.lean ====
/-
  A mean-aggregating graph layer, one output at a time, over the extended reals. No program is mentioned here.

  For a node n and an output feature c the layer's value is

      (∑ₖ (msg n k / max (deg n) 1) · Wl k c  +  ∑ₖ x n k · Wr k c)  +  b c,

  where msg is the sum of the neighbours' rows, deg the number of neighbours, x the node's own row (sageAt). Two
  arrangements of array operations compute it. Row-block by row-block on a tile of T rows: the quotient by the
  column of clipped degrees, two plain products into zero accumulators, their sum, then the one-row bias stretched
  over the rows (tile_apply). On whole arrays: the quotient by the degree vector kept as a column and stretched,
  a product, the bias vector laid as a row and stretched, then the second product added last (refLayer_apply).
  The two differ only in where the bias enters the sum, and addition on the extended reals is commutative and
  associative, so both are sageAt: no finiteness is needed. sageLayer is the same value laid out as an array.
-/
import Idealize.ShloMosaic.PureOps.Ideal.Laws
import Idealize.ShloMosaic.Lib.ValueIdx
import Idealize.ShloMosaic.Lib.ValueLayout
import Idealize.ShloMosaic.Lib.Pipeline.Value
import proofs.«143965_j4028679324281_1_alg».proof.Proof.LibDense
import proofs.«143965_j4028679324281_1_alg».proof.Proof.LibKeepdims

noncomputable section

open scoped BigOperators

namespace LibSage

open Idealize.ShloMosaic Idealize.ShloMosaic.ValueIdx

/-- One output of the layer: the neighbour sum's row divided by the clipped degree against a column of the first
    weights, plus the node's row against a column of the second weights, plus the bias. `one` is the clip. -/
def sageAt {K : ℕ} (one : EReal) (msg : Fin K → EReal) (d : EReal) (x : Fin K → EReal) (wl wr : Fin K → EReal)
    (b : EReal) : EReal :=
  (∑ k : Fin K, Ideal.div (msg k) (max d one) * wl k + ∑ k : Fin K, x k * wr k) + b

/-- The layer as an array: entry (n, c) from row n of the neighbour sums and of the features, the degree column's
    entry n, columns c of the two weight arrays and the bias row's entry c. -/
def sageLayer {N K C : ℕ} (one : EReal) (msg : (⟨2, ![N, K]⟩ : Shape).Idx → EReal) (degc : (⟨2, ![N, 1]⟩ : Shape).Idx → EReal)
    (x : (⟨2, ![N, K]⟩ : Shape).Idx → EReal) (wl : (⟨2, ![K, C]⟩ : Shape).Idx → EReal) (brow : (⟨2, ![1, C]⟩ : Shape).Idx → EReal)
    (wr : (⟨2, ![K, C]⟩ : Shape).Idx → EReal) : (⟨2, ![N, C]⟩ : Shape).Idx → EReal :=
  fun i => sageAt one (fun k => msg (ix2 (i 0 : Fin N) k)) (degc (ix2 (i 0 : Fin N) (0 : Fin 1))) (fun k => x (ix2 (i 0 : Fin N) k))
    (fun k => wl (ix2 k (i 1 : Fin C))) (fun k => wr (ix2 k (i 1 : Fin C))) (brow (ix2 (0 : Fin 1) (i 1 : Fin C)))

theorem sageLayer_apply {N K C : ℕ} (one : EReal) (msg : (⟨2, ![N, K]⟩ : Shape).Idx → EReal) (degc : (⟨2, ![N, 1]⟩ : Shape).Idx → EReal)
    (x : (⟨2, ![N, K]⟩ : Shape).Idx → EReal) (wl : (⟨2, ![K, C]⟩ : Shape).Idx → EReal) (brow : (⟨2, ![1, C]⟩ : Shape).Idx → EReal)
    (wr : (⟨2, ![K, C]⟩ : Shape).Idx → EReal) (n : Fin N) (c : Fin C) :
    sageLayer one msg degc x wl brow wr (ix2 n c)
      = sageAt one (fun k => msg (ix2 n k)) (degc (ix2 n (0 : Fin 1))) (fun k => x (ix2 n k))
          (fun k => wl (ix2 k c)) (fun k => wr (ix2 k c)) (brow (ix2 (0 : Fin 1) c)) := rfl

/-- The host's plain product of an N×K by a K×C array at (r, c): the sum over k of lhs (r, k) · rhs (k, c) — the
    same sum a product into a zero accumulator reads. -/
theorem plain_dotGeneral_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) :=
  (Ideal.dotGeneral_apply d prec .single lhs rhs (ix2 r c)).trans
    ((Ideal.matmul_constant_zero_apply d prec lhs rhs (ix2 r c)).symm.trans (LibDense.plain_matmul_apply d hd prec lhs rhs r c))

section Rows
variable {α : Type}

/-- A vector of b entries broadcast in dimension 1 to one row reads, at (u, c), the vector's entry c. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ (![1] : Fin 1 → Fin 2) h x (ix2 u c) = x (ix1 c) := by
  refine broadcastInDim_apply (![1] : Fin 1 → Fin 2) h x (ix2 u c) (ix1 c) fun ax => ?_
  match ax with
  | ⟨0, _⟩ =>
    show c.val = if b = 1 then 0 else c.val
    split
    · have := c.isLt; omega
    · rfl

/-- One row broadcast in dimensions (0, 1) over a rows reads, at (p, c), the row's entry c. -/
theorem broadcastInDim_1b_ab_apply {a b : ℕ} (h : (⟨2, ![1, b]⟩ : Shape).BroadcastsInDim ⟨2, ![a, b]⟩ (![0, 1] : Fin 2 → Fin 2))
    (v : (⟨2, ![1, b]⟩ : Shape).Idx → α) (p : Fin a) (c : Fin b) :
    broadcastInDim ⟨2, ![a, b]⟩ (![0, 1] : Fin 2 → Fin 2) h v (ix2 p c) = v (ix2 (0 : Fin 1) c) := by
  refine broadcastInDim_apply (![0, 1] : Fin 2 → Fin 2) h v (ix2 p c) (ix2 (0 : Fin 1) c) fun ax => ?_
  match ax with
  | ⟨0, _⟩ => rfl
  | ⟨1, _⟩ =>
    show c.val = if b = 1 then 0 else c.val
    split
    · have := c.isLt; omega
    · rfl

end Rows

/-- THE TILE ARRANGEMENT. On a tile of T rows: the neighbour sums divided by the column of degrees clipped below at
    `one` and stretched along the rows, multiplied into the first weights; the tile's own rows multiplied into the second
    weights; the two products added, then the bias row stretched over the rows added. Entry (p, q) is sageAt of row p. -/
theorem tile_apply {T K C : ℕ} (d : DotDims ⟨2, ![T, K]⟩ ⟨2, ![K, C]⟩ ⟨2, ![T, C]⟩) (hd : d = DotDims.plain T K C)
    (hbc : (⟨2, ![T, 1]⟩ : Shape).Broadcasts ⟨2, ![T, K]⟩) (hbr : (⟨2, ![1, C]⟩ : Shape).Broadcasts ⟨2, ![T, C]⟩)
    (hlt : FTy.bf16.bits < FTy.f32.bits) (w1 : BitVec FTy.f32.bits)
    (v0 : FVec Ideal ⟨2, ![T, 1]⟩ .f32) (v2 v9 : FVec Ideal ⟨2, ![T, K]⟩ .f32) (v11 v13 : FVec Ideal ⟨2, ![K, C]⟩ .f32)
    (v18 : FVec Ideal ⟨2, ![1, C]⟩ .f32) (p : Fin T) (q : Fin C) :
    addf (addf
        (matmul d none (truncf .bf16 (divf v2 (broadcastTo ⟨2, ![T, K]⟩ (maximumf v0 (broadcast ⟨2, ![T, 1]⟩ (Scalar.ofBits (F := Ideal) .f32 w1))) hbc)) hlt)
          (truncf .bf16 v11 hlt) (constant ⟨2, ![T, C]⟩ .f32 0x00000000#32))
        (matmul d none (truncf .bf16 v9 hlt) (truncf .bf16 v13 hlt) (constant ⟨2, ![T, C]⟩ .f32 0x00000000#32)))
      (broadcastTo ⟨2, ![T, C]⟩ v18 hbr) (ix2 p q)
    = sageAt (Ideal.ofBits .f32 w1) (fun k => v2 (ix2 p k)) (v0 (ix2 p (0 : Fin 1))) (fun k => v9 (ix2 p k))
        (fun k => v11 (ix2 k q)) (fun k => v13 (ix2 k q)) (v18 (ix2 (0 : Fin 1) q)) := by
  rw [addf_apply, addf_apply, LibDense.plain_matmul_apply d hd, LibDense.plain_matmul_apply d hd, broadcastTo_1b_ab_apply]
  unfold sageAt
  refine congrArg (· + v18 (ix2 (0 : Fin 1) q)) (congrArg₂ (· + ·) (Finset.sum_congr rfl fun k _ => ?_) (Finset.sum_congr rfl fun k _ => ?_))
  · rw [truncf_apply, truncf_apply, divf_apply, LibDense.broadcast_col_apply, maximumf_apply, broadcast_apply]
    rfl
  · rw [truncf_apply, truncf_apply]

/-- THE WHOLE-ARRAY ARRANGEMENT. The neighbour sums divided by the degree vector clipped below at `one`, kept as a
    column and stretched along the rows, multiplied into the first weights; the bias vector laid as one row and stretched
    over the rows added; the features multiplied into the second weights added last. Entry (n, c) is sageAt of row n:
    the bias moves past the second product by commutativity and associativity of the sum. -/
theorem refLayer_apply {N K C : ℕ} (d : DotDims ⟨2, ![N, K]⟩ ⟨2, ![K, C]⟩ ⟨2, ![N, C]⟩) (hd : d = DotDims.plain N K C)
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2))
    (h3 : (⟨1, ![C]⟩ : Shape).BroadcastsInDim ⟨2, ![1, C]⟩ (![1] : Fin 1 → Fin 2))
    (h4 : (⟨2, ![1, C]⟩ : Shape).BroadcastsInDim ⟨2, ![N, C]⟩ (![0, 1] : Fin 2 → Fin 2))
    (w1 : BitVec FTy.f32.bits)
    (msg x : FVec Ideal ⟨2, ![N, K]⟩ .f32) (deg : FVec Ideal ⟨1, ![N]⟩ .f32) (wl wr : FVec Ideal ⟨2, ![K, C]⟩ .f32)
    (b : FVec Ideal ⟨1, ![C]⟩ .f32) (n : Fin N) (c : Fin C) :
    addf (addf
        (Host.dotGeneral d none
          (Host.divf msg (broadcastInDim ⟨2, ![N, K]⟩ (![0, 1] : Fin 2 → Fin 2) h2 (broadcastInDim ⟨2, ![N, 1]⟩ (![0] : Fin 1 → Fin 2) h1
            (maximumf deg (broadcastInDim ⟨1, ![N]⟩ (![] : Fin 0 → Fin 1) h0 (constant (F := Ideal) ⟨0, ![]⟩ .f32 w1)))))) wl)
        (broadcastInDim ⟨2, ![N, C]⟩ (![0, 1] : Fin 2 → Fin 2) h4 (broadcastInDim ⟨2, ![1, C]⟩ (![1] : Fin 1 → Fin 2) h3 b)))
      (Host.dotGeneral d none x wr) (ix2 n c)
    = sageAt (Ideal.ofBits .f32 w1) (fun k => msg (ix2 n k)) (deg (ix1 n)) (fun k => x (ix2 n k))
        (fun k => wl (ix2 k c)) (fun k => wr (ix2 k c)) (b (ix1 c)) := by
  have hdeg : ∀ k : Fin K,
      (broadcastInDim ⟨2, ![N, K]⟩ (![0, 1] : Fin 2 → Fin 2) h2 (broadcastInDim ⟨2, ![N, 1]⟩ (![0] : Fin 1 → Fin 2) h1
        (maximumf deg (broadcastInDim ⟨1, ![N]⟩ (![] : Fin 0 → Fin 1) h0 (constant (F := Ideal) ⟨0, ![]⟩ .f32 w1))))) (ix2 n k)
        = max (deg (ix1 n)) (Ideal.ofBits .f32 w1) := by
    intro k
    rw [Cert.Gcn.broadcastInDim_a1_ab_apply, Cert.Gcn.broadcastInDim_a_a1_apply, maximumf_apply]
    refine congrArg (max (deg (ix1 n))) ?_
    exact (broadcastInDim_apply (![] : Fin 0 → Fin 1) h0 _ (ix1 n) ix0 (fun a => a.elim0)).trans rfl
  rw [addf_apply, addf_apply, plain_dotGeneral_apply d hd, plain_dotGeneral_apply d hd, broadcastInDim_1b_ab_apply,
    broadcastInDim_b_1b_apply]
  unfold sageAt
  rw [add_right_comm]
  refine congrArg (· + b (ix1 c)) (congrArg (· + ∑ k : Fin K, x (ix2 n k) * wr (ix2 k c)) (Finset.sum_congr rfl fun k _ => ?_))
  show Ideal.div (msg (ix2 n k)) _ * wl (ix2 k c) = _
  rw [hdeg k]

end LibSage

end
-- ==== Proof.LibSageDense.lean ====
/-
  A dense layer with two inputs, read one output at a time over the extended reals. No program is mentioned here.

  For a row n and an output feature c the layer's value is

      (∑ₖ a n k · Wl c k  +  ∑ₖ x n k · Wr c k)  +  b c,

  the weights held feature-major (row c of Wl is the column the product needs), so each arrangement transposes
  them before its product (denseAt). Two arrangements of array operations compute it. On a tile of T rows: the two
  products into zero accumulators, their sum, then the bias laid as one row and stretched over the rows
  (tile_apply). On whole arrays: the first product, the bias vector broadcast to a row and stretched, and the second
  product added last (ref_apply). They differ only in where the bias enters the sum; addition on the extended reals
  is commutative and associative, so both are denseAt and no finiteness is needed. A maximum against a constant
  after either arrangement is the maximum of denseAt with that constant (tileRelu_apply, refRelu_apply). layer and
  layerRelu are the same values laid out as arrays.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«143965_j4028679324281_1_alg».proof.Proof.LibDense
import proofs.«143965_j4028679324281_1_alg».proof.Proof.LibSage

noncomputable section

open scoped BigOperators

namespace SageDense

open Idealize.ShloMosaic Idealize.ShloMosaic.ValueIdx

/-- One output of the layer: the aggregated row against row c of the first weights, plus the node's own row
    against row c of the second weights, plus the bias. -/
def denseAt {K : ℕ} (a x wl wr : Fin K → EReal) (b : EReal) : EReal :=
  (∑ k : Fin K, a k * wl k + ∑ k : Fin K, x k * wr k) + b

/-- The layer as an array: entry (n, c) from rows n of the two inputs, rows c of the two weight arrays and the
    bias entry c. -/
def layer {N K C : ℕ} (a x : (⟨2, ![N, K]⟩ : Shape).Idx → EReal) (wl : (⟨2, ![C, K]⟩ : Shape).Idx → EReal)
    (b : (⟨1, ![C]⟩ : Shape).Idx → EReal) (wr : (⟨2, ![C, K]⟩ : Shape).Idx → EReal) : (⟨2, ![N, C]⟩ : Shape).Idx → EReal :=
  fun i => denseAt (fun k => a (ix2 (i 0 : Fin N) k)) (fun k => x (ix2 (i 0 : Fin N) k))
    (fun k => wl (ix2 (i 1 : Fin C) k)) (fun k => wr (ix2 (i 1 : Fin C) k)) (b (ix1 (i 1 : Fin C)))

/-- The layer followed by a maximum against the constant z. -/
def layerRelu {N K C : ℕ} (z : EReal) (a x : (⟨2, ![N, K]⟩ : Shape).Idx → EReal) (wl : (⟨2, ![C, K]⟩ : Shape).Idx → EReal)
    (b : (⟨1, ![C]⟩ : Shape).Idx → EReal) (wr : (⟨2, ![C, K]⟩ : Shape).Idx → EReal) : (⟨2, ![N, C]⟩ : Shape).Idx → EReal :=
  fun i => max (layer a x wl b wr i) z

theorem layer_apply {N K C : ℕ} (a x : (⟨2, ![N, K]⟩ : Shape).Idx → EReal) (wl : (⟨2, ![C, K]⟩ : Shape).Idx → EReal)
    (b : (⟨1, ![C]⟩ : Shape).Idx → EReal) (wr : (⟨2, ![C, K]⟩ : Shape).Idx → EReal) (n : Fin N) (c : Fin C) :
    layer a x wl b wr (ix2 n c)
      = denseAt (fun k => a (ix2 n k)) (fun k => x (ix2 n k)) (fun k => wl (ix2 c k)) (fun k => wr (ix2 c k)) (b (ix1 c)) := rfl

theorem layerRelu_apply {N K C : ℕ} (z : EReal) (a x : (⟨2, ![N, K]⟩ : Shape).Idx → EReal) (wl : (⟨2, ![C, K]⟩ : Shape).Idx → EReal)
    (b : (⟨1, ![C]⟩ : Shape).Idx → EReal) (wr : (⟨2, ![C, K]⟩ : Shape).Idx → EReal) (n : Fin N) (c : Fin C) :
    layerRelu z a x wl b wr (ix2 n c)
      = max (denseAt (fun k => a (ix2 n k)) (fun k => x (ix2 n k)) (fun k => wl (ix2 c k)) (fun k => wr (ix2 c k)) (b (ix1 c))) z := rfl

/-- THE TILE ARRANGEMENT. On a tile of T rows: each input multiplied into its transposed weights, the two products
    added, then the bias laid as one row and stretched over the rows added. Entry (p, q) is denseAt of row p. -/
theorem tile_apply {T K C : ℕ} (d : DotDims ⟨2, ![T, K]⟩ ⟨2, ![K, C]⟩ ⟨2, ![T, C]⟩) (hd : d = DotDims.plain T K C)
    (htr : (⟨2, ![C, K]⟩ : Shape).Transposes [1, 0] ⟨2, ![K, C]⟩)
    (hsc : (⟨1, ![C]⟩ : Shape).ShapeCasts ⟨2, ![1, C]⟩)
    (hbr : (⟨2, ![1, C]⟩ : Shape).Broadcasts ⟨2, ![T, C]⟩)
    (hlt : FTy.bf16.bits < FTy.f32.bits)
    (a x : FVec Ideal ⟨2, ![T, K]⟩ .f32) (wl wr : FVec Ideal ⟨2, ![C, K]⟩ .f32) (b : FVec Ideal ⟨1, ![C]⟩ .f32)
    (p : Fin T) (q : Fin C) :
    addf (addf
        (matmul d none (truncf .bf16 a hlt) (transpose ⟨2, ![K, C]⟩ [1, 0] (truncf .bf16 wl hlt) htr) (constant ⟨2, ![T, C]⟩ .f32 0x00000000#32))
        (matmul d none (truncf .bf16 x hlt) (transpose ⟨2, ![K, C]⟩ [1, 0] (truncf .bf16 wr hlt) htr) (constant ⟨2, ![T, C]⟩ .f32 0x00000000#32)))
      (broadcastTo ⟨2, ![T, C]⟩ (shapeCast ⟨2, ![1, C]⟩ b hsc) hbr) (ix2 p q)
    = denseAt (fun k => a (ix2 p k)) (fun k => x (ix2 p k)) (fun k => wl (ix2 q k)) (fun k => wr (ix2 q k)) (b (ix1 q)) := by
  rw [addf_apply, addf_apply, LibDense.plain_matmul_apply d hd, LibDense.plain_matmul_apply d hd, broadcastTo_1b_ab_apply,
    shapeCast_a_1a_apply]
  unfold denseAt
  refine congrArg (· + b (ix1 q)) (congrArg₂ (· + ·) (Finset.sum_congr rfl fun k _ => ?_) (Finset.sum_congr rfl fun k _ => ?_))
  · rw [transpose_ix2_apply, truncf_apply, truncf_apply]
  · rw [transpose_ix2_apply, truncf_apply, truncf_apply]

/-- The tile arrangement followed by a maximum against a splat constant. -/
theorem tileRelu_apply {T K C : ℕ} (d : DotDims ⟨2, ![T, K]⟩ ⟨2, ![K, C]⟩ ⟨2, ![T, C]⟩) (hd : d = DotDims.plain T K C)
    (htr : (⟨2, ![C, K]⟩ : Shape).Transposes [1, 0] ⟨2, ![K, C]⟩)
    (hsc : (⟨1, ![C]⟩ : Shape).ShapeCasts ⟨2, ![1, C]⟩)
    (hbr : (⟨2, ![1, C]⟩ : Shape).Broadcasts ⟨2, ![T, C]⟩)
    (hlt : FTy.bf16.bits < FTy.f32.bits) (w : BitVec FTy.f32.bits)
    (a x : FVec Ideal ⟨2, ![T, K]⟩ .f32) (wl wr : FVec Ideal ⟨2, ![C, K]⟩ .f32) (b : FVec Ideal ⟨1, ![C]⟩ .f32)
    (p : Fin T) (q : Fin C) :
    maximumf (addf (addf
        (matmul d none (truncf .bf16 a hlt) (transpose ⟨2, ![K, C]⟩ [1, 0] (truncf .bf16 wl hlt) htr) (constant ⟨2, ![T, C]⟩ .f32 0x00000000#32))
        (matmul d none (truncf .bf16 x hlt) (transpose ⟨2, ![K, C]⟩ [1, 0] (truncf .bf16 wr hlt) htr) (constant ⟨2, ![T, C]⟩ .f32 0x00000000#32)))
      (broadcastTo ⟨2, ![T, C]⟩ (shapeCast ⟨2, ![1, C]⟩ b hsc) hbr))
      (broadcast ⟨2, ![T, C]⟩ (Scalar.ofBits (F := Ideal) .f32 w)) (ix2 p q)
    = max (denseAt (fun k => a (ix2 p k)) (fun k => x (ix2 p k)) (fun k => wl (ix2 q k)) (fun k => wr (ix2 q k)) (b (ix1 q)))
        (Ideal.ofBits .f32 w) := by
  rw [maximumf_apply, tile_apply d hd htr hsc hbr hlt, broadcast_apply]
  rfl

/-- THE WHOLE-ARRAY ARRANGEMENT. The first input multiplied into its transposed weights, the bias vector laid as one
    row and stretched over the rows added, the second product added last. Entry (n, c) is denseAt of row n: the bias
    moves past the second product by commutativity and associativity of the sum. -/
theorem ref_apply {N K C : ℕ} (d : DotDims ⟨2, ![N, K]⟩ ⟨2, ![K, C]⟩ ⟨2, ![N, C]⟩) (hd : d = DotDims.plain N K C)
    (htr : (⟨2, ![C, K]⟩ : Shape).Transposes [1, 0] ⟨2, ![K, C]⟩)
    (h3 : (⟨1, ![C]⟩ : Shape).BroadcastsInDim ⟨2, ![1, C]⟩ (![1] : Fin 1 → Fin 2))
    (h4 : (⟨2, ![1, C]⟩ : Shape).BroadcastsInDim ⟨2, ![N, C]⟩ (![0, 1] : Fin 2 → Fin 2))
    (a x : FVec Ideal ⟨2, ![N, K]⟩ .f32) (wl wr : FVec Ideal ⟨2, ![C, K]⟩ .f32) (b : FVec Ideal ⟨1, ![C]⟩ .f32)
    (n : Fin N) (c : Fin C) :
    addf (addf (Host.dotGeneral d none a (transpose ⟨2, ![K, C]⟩ [1, 0] wl htr))
        (broadcastInDim ⟨2, ![N, C]⟩ (![0, 1] : Fin 2 → Fin 2) h4 (broadcastInDim ⟨2, ![1, C]⟩ (![1] : Fin 1 → Fin 2) h3 b)))
      (Host.dotGeneral d none x (transpose ⟨2, ![K, C]⟩ [1, 0] wr htr)) (ix2 n c)
    = denseAt (fun k => a (ix2 n k)) (fun k => x (ix2 n k)) (fun k => wl (ix2 c k)) (fun k => wr (ix2 c k)) (b (ix1 c)) := by
  rw [addf_apply, addf_apply, LibSage.plain_dotGeneral_apply d hd, LibSage.plain_dotGeneral_apply d hd,
    LibSage.broadcastInDim_1b_ab_apply, LibSage.broadcastInDim_b_1b_apply]
  unfold denseAt
  rw [add_right_comm]
  refine congrArg (· + b (ix1 c)) (congrArg₂ (· + ·) (Finset.sum_congr rfl fun k _ => ?_) (Finset.sum_congr rfl fun k _ => ?_))
  · rw [transpose_ix2_apply]
  · rw [transpose_ix2_apply]

/-- The whole-array arrangement followed by a maximum against a broadcast scalar constant. -/
theorem refRelu_apply {N K C : ℕ} (d : DotDims ⟨2, ![N, K]⟩ ⟨2, ![K, C]⟩ ⟨2, ![N, C]⟩) (hd : d = DotDims.plain N K C)
    (htr : (⟨2, ![C, K]⟩ : Shape).Transposes [1, 0] ⟨2, ![K, C]⟩)
    (h3 : (⟨1, ![C]⟩ : Shape).BroadcastsInDim ⟨2, ![1, C]⟩ (![1] : Fin 1 → Fin 2))
    (h4 : (⟨2, ![1, C]⟩ : Shape).BroadcastsInDim ⟨2, ![N, C]⟩ (![0, 1] : Fin 2 → Fin 2))
    (h0 : (⟨0, ![]⟩ : Shape).BroadcastsInDim ⟨2, ![N, C]⟩ (![] : Fin 0 → Fin 2)) (w : BitVec FTy.f32.bits)
    (a x : FVec Ideal ⟨2, ![N, K]⟩ .f32) (wl wr : FVec Ideal ⟨2, ![C, K]⟩ .f32) (b : FVec Ideal ⟨1, ![C]⟩ .f32)
    (n : Fin N) (c : Fin C) :
    maximumf (addf (addf (Host.dotGeneral d none a (transpose ⟨2, ![K, C]⟩ [1, 0] wl htr))
        (broadcastInDim ⟨2, ![N, C]⟩ (![0, 1] : Fin 2 → Fin 2) h4 (broadcastInDim ⟨2, ![1, C]⟩ (![1] : Fin 1 → Fin 2) h3 b)))
      (Host.dotGeneral d none x (transpose ⟨2, ![K, C]⟩ [1, 0] wr htr)))
      (broadcastInDim ⟨2, ![N, C]⟩ (![] : Fin 0 → Fin 2) h0 (constant (F := Ideal) ⟨0, ![]⟩ .f32 w)) (ix2 n c)
    = max (denseAt (fun k => a (ix2 n k)) (fun k => x (ix2 n k)) (fun k => wl (ix2 c k)) (fun k => wr (ix2 c k)) (b (ix1 c)))
        (Ideal.ofBits .f32 w) := by
  rw [maximumf_apply, ref_apply d hd htr h3 h4, broadcastInDim_scalar_apply, constant_apply]

/-- The whole-array arrangement IS the layer. -/
theorem ref_eq_layer {N K C : ℕ} (d : DotDims ⟨2, ![N, K]⟩ ⟨2, ![K, C]⟩ ⟨2, ![N, C]⟩) (hd : d = DotDims.plain N K C)
    (htr : (⟨2, ![C, K]⟩ : Shape).Transposes [1, 0] ⟨2, ![K, C]⟩)
    (h3 : (⟨1, ![C]⟩ : Shape).BroadcastsInDim ⟨2, ![1, C]⟩ (![1] : Fin 1 → Fin 2))
    (h4 : (⟨2, ![1, C]⟩ : Shape).BroadcastsInDim ⟨2, ![N, C]⟩ (![0, 1] : Fin 2 → Fin 2))
    (a x : FVec Ideal ⟨2, ![N, K]⟩ .f32) (wl wr : FVec Ideal ⟨2, ![C, K]⟩ .f32) (b : FVec Ideal ⟨1, ![C]⟩ .f32) :
    addf (addf (Host.dotGeneral d none a (transpose ⟨2, ![K, C]⟩ [1, 0] wl htr))
        (broadcastInDim ⟨2, ![N, C]⟩ (![0, 1] : Fin 2 → Fin 2) h4 (broadcastInDim ⟨2, ![1, C]⟩ (![1] : Fin 1 → Fin 2) h3 b)))
      (Host.dotGeneral d none x (transpose ⟨2, ![K, C]⟩ [1, 0] wr htr))
    = layer a x wl b wr := by
  funext i
  obtain ⟨n, c, rfl⟩ : ∃ (n : Fin N) (c : Fin C), i = ix2 n c := ⟨i 0, i 1, eq_ix2 i⟩
  exact ref_apply d hd htr h3 h4 a x wl wr b n c

/-- The whole-array arrangement followed by the maximum IS the layer with the maximum. -/
theorem refRelu_eq_layerRelu {N K C : ℕ} (d : DotDims ⟨2, ![N, K]⟩ ⟨2, ![K, C]⟩ ⟨2, ![N, C]⟩) (hd : d = DotDims.plain N K C)
    (htr : (⟨2, ![C, K]⟩ : Shape).Transposes [1, 0] ⟨2, ![K, C]⟩)
    (h3 : (⟨1, ![C]⟩ : Shape).BroadcastsInDim ⟨2, ![1, C]⟩ (![1] : Fin 1 → Fin 2))
    (h4 : (⟨2, ![1, C]⟩ : Shape).BroadcastsInDim ⟨2, ![N, C]⟩ (![0, 1] : Fin 2 → Fin 2))
    (h0 : (⟨0, ![]⟩ : Shape).BroadcastsInDim ⟨2, ![N, C]⟩ (![] : Fin 0 → Fin 2)) (w : BitVec FTy.f32.bits)
    (a x : FVec Ideal ⟨2, ![N, K]⟩ .f32) (wl wr : FVec Ideal ⟨2, ![C, K]⟩ .f32) (b : FVec Ideal ⟨1, ![C]⟩ .f32) :
    maximumf (addf (addf (Host.dotGeneral d none a (transpose ⟨2, ![K, C]⟩ [1, 0] wl htr))
        (broadcastInDim ⟨2, ![N, C]⟩ (![0, 1] : Fin 2 → Fin 2) h4 (broadcastInDim ⟨2, ![1, C]⟩ (![1] : Fin 1 → Fin 2) h3 b)))
      (Host.dotGeneral d none x (transpose ⟨2, ![K, C]⟩ [1, 0] wr htr)))
      (broadcastInDim ⟨2, ![N, C]⟩ (![] : Fin 0 → Fin 2) h0 (constant (F := Ideal) ⟨0, ![]⟩ .f32 w))
    = layerRelu (Ideal.ofBits .f32 w) a x wl b wr := by
  funext i
  obtain ⟨n, c, rfl⟩ : ∃ (n : Fin N) (c : Fin C), i = ix2 n c := ⟨i 0, i 1, eq_ix2 i⟩
  exact refRelu_apply d hd htr h3 h4 h0 w a x wl wr b n c

end SageDense

end
-- ==== Proof.Region0.lean ====
/-
  The first region of the idealized kernel: one dense layer with a maximum against zero, tile by tile.

  The region runs over ten grid points; point t stages rows 5000·t … 5000·t + 4999 of the aggregated array and of the
  features, the whole of both weight arrays and of the bias, and writes back rows 5000·t … 5000·t + 4999 of the result.
  Entry (p, q) of what the body stores is the dense layer's value (SageDense.denseAt) of rows p of the two input
  blocks, rows q of the two weight blocks and entry q of the bias, then the maximum with the zero word (pay_apply). Read through
  the blocks' positions this is block t of ONE whole-array function of the arrays as the region finds them
  (flushed_eq); the ten blocks tile the result (covered), so the result array ends holding that function (final).
-/
import proofs.«143965_j4028679324281_1_alg».proof.Proof.KernelIdealFrameP
import proofs.«143965_j4028679324281_1_alg».proof.Proof.LibSageDense
import Idealize.ShloMosaic.Lib.Pipeline.Value
import Idealize.ShloMosaic.Lib.ValueIdx

set_option maxRecDepth 16384

noncomputable section

namespace Cert.KernelIdeal.Layer0

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The whole-array function the region computes, of the arrays as the region finds them. -/
abbrev G (a x : S50000x128.Idx → EReal) (wl : S128x128.Idx → EReal) (b : S128.Idx → EReal) (wr : S128x128.Idx → EReal) :
    S50000x128.Idx → EReal :=
  SageDense.layerRelu (N := 50000) (K := 128) (C := 128) (Ideal.ofBits .f32 0x00000000#32) a x wl b wr

/-- What the body stores, entry (p, q): the dense layer's value of rows p of the input blocks, rows q of the weight
    blocks and the bias entry q, clipped below at the zero word. -/
theorem pay_apply (x0 x1 : Vec Ideal S5000x128 .f32) (x2 x4 : Vec Ideal S128x128 .f32) (x3 : Vec Ideal S128 .f32)
    (p : Fin 5000) (q : Fin 128) :
    k0_pay1 x0 x1 x2 x4 x3 (ix2 p q)
      = max (SageDense.denseAt (fun k : Fin 128 => x0 (ix2 p k)) (fun k => x1 (ix2 p k)) (fun k => x2 (ix2 q k)) (fun k => x4 (ix2 q k)) (x3 (ix1 q)))
          (Ideal.ofBits .f32 0x00000000#32) := by
  unfold k0_pay1
  dsimp only
  simp only [shapeCast_self]
  exact SageDense.tileRelu_apply (T := 5000) (K := 128) (C := 128) _ rfl _ _ _ _ _ x0 x1 x2 x4 x3 p q

/-- The printed index maps, decided over the grid: the two row-tiled inputs move with the output along the rows, the
    weights and the bias stay at their one block, and the output's block index is the point. -/
theorem idx_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every row block is some point's. -/
theorem idx_onto : ∀ (q0 : Fin 10), ∃ t : Fin cfg0.N, win0_5.index t = ![q0.val, 0] :=
  (by decide +kernel : ∀ (q0 : Fin 10), ∃ t : Fin grid0.N, win0_5.index t = ![q0.val, 0])

/-- WHAT POINT t WRITES BACK is block t of G of the arrays as the region finds them. -/
theorem flushed_eq (c : Dev nD) (t : Fin cfg0.N) :
    (dat0 V c).flushed 5 t = ((cfg0.win 5).blk t).view.read (Elt Ideal)
      (G (V c main_v24) (V c main_arg0) (V c main_arg2) (V c main_arg3) (V c main_arg4)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9, e10⟩ := idx_facts t
  funext j
  obtain ⟨p, q, rfl⟩ : ∃ (p : Fin 5000) (q : Fin 128), j = ix2 p q := ⟨j 0, j 1, eq_ix2 j⟩
  refine (pay_apply (iblk0 V c 0 t) (iblk0 V c 1 t) (iblk0 V c 2 t) (iblk0 V c 4 t) (iblk0 V c 3 t) p q).trans ?_
  show _ = max (SageDense.denseAt
      (fun k : Fin 128 => V c main_v24 (ix2 ((((cfg0.win 5).blk t).view.emb (ix2 p q)) 0) k))
      (fun k : Fin 128 => V c main_arg0 (ix2 ((((cfg0.win 5).blk t).view.emb (ix2 p q)) 0) k))
      (fun k : Fin 128 => V c main_arg2 (ix2 ((((cfg0.win 5).blk t).view.emb (ix2 p q)) 1) k))
      (fun k : Fin 128 => V c main_arg4 (ix2 ((((cfg0.win 5).blk t).view.emb (ix2 p q)) 1) k))
      (V c main_arg3 (ix1 ((((cfg0.win 5).blk t).view.emb (ix2 p q)) 1)))) (Ideal.ofBits .f32 0x00000000#32)
  have hp : p.val < 5000 := p.isLt
  have hq : q.val < 128 := q.isLt
  have ha : ∀ k : Fin 128, iblk0 V c 0 t (ix2 p k) = V c main_v24 (ix2 ((((cfg0.win 5).blk t).view.emb (ix2 p q)) 0) k) := fun k => by
    show V c main_v24 (((cfg0.win 0).blk t).view.emb (ix2 p k)) = _
    refine congrArg (V c main_v24) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  have hx : ∀ k : Fin 128, iblk0 V c 1 t (ix2 p k) = V c main_arg0 (ix2 ((((cfg0.win 5).blk t).view.emb (ix2 p q)) 0) k) := fun k => by
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  have hwl : ∀ k : Fin 128, iblk0 V c 2 t (ix2 q k) = V c main_arg2 (ix2 ((((cfg0.win 5).blk t).view.emb (ix2 p q)) 1) k) := fun k => by
    show V c main_arg2 (((cfg0.win 2).blk t).view.emb (ix2 q k)) = _
    refine congrArg (V c main_arg2) (funext fun a => Fin.ext ?_)
    match a with
    | ⟨0, _⟩ => show win0_2.index t (0 : Fin 2) * 128 + 1 * q.val = win0_5.index t (1 : Fin 2) * 128 + 1 * q.val; omega
    | ⟨1, _⟩ => show win0_2.index t (1 : Fin 2) * 128 + 1 * k.val = k.val; omega
  have hwr : ∀ k : Fin 128, iblk0 V c 4 t (ix2 q k) = V c main_arg4 (ix2 ((((cfg0.win 5).blk t).view.emb (ix2 p q)) 1) k) := fun k => by
    show V c main_arg4 (((cfg0.win 4).blk t).view.emb (ix2 q k)) = _
    refine congrArg (V c main_arg4) (funext fun a => Fin.ext ?_)
    match a with
    | ⟨0, _⟩ => show win0_4.index t (0 : Fin 2) * 128 + 1 * q.val = win0_5.index t (1 : Fin 2) * 128 + 1 * q.val; omega
    | ⟨1, _⟩ => show win0_4.index t (1 : Fin 2) * 128 + 1 * k.val = k.val; omega
  have hb : iblk0 V c 3 t (ix1 q) = V c main_arg3 (ix1 ((((cfg0.win 5).blk t).view.emb (ix2 p q)) 1)) := by
    show V c main_arg3 (((cfg0.win 3).blk t).view.emb (ix1 q)) = _
    refine congrArg (V c main_arg3) (funext fun a => Fin.ext ?_)
    match a with
    | ⟨0, _⟩ => show win0_3.index t (0 : Fin 1) * 128 + 1 * q.val = win0_5.index t (1 : Fin 2) * 128 + 1 * q.val; omega
  simp only [ha, hx, hwl, hwr, hb]

/-- An index of the result array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- The ten row blocks tile the result: the block that holds row r is the one of point r / 5000. -/
theorem covered (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the region: G of the arrays as the region finds them. -/
theorem final (c : Dev nD) : (dat0 V c).arrAt 5 cfg0.N
    = G (V c main_v24) (V c main_arg0) (V c main_arg2) (V c main_arg3) (V c main_arg4) :=
  (dat0 V c).arrAt_eq_of_cover 5 _ (fun t _ => flushed_eq V c t) covered

end Cert.KernelIdeal.Layer0

end
-- ==== Proof.Region1.lean ====
/-
  The second region of the idealized kernel: one dense layer with a maximum against zero, tile by tile.

  The region runs over ten grid points; point t stages rows 5000·t … 5000·t + 4999 of the aggregated array and of the
  features, the whole of both weight arrays and of the bias, and writes back rows 5000·t … 5000·t + 4999 of the result.
  Entry (p, q) of what the body stores is the dense layer's value (SageDense.denseAt) of rows p of the two input
  blocks, rows q of the two weight blocks and entry q of the bias, then the maximum with the zero word (pay_apply). Read through
  the blocks' positions this is block t of ONE whole-array function of the arrays as the region finds them
  (flushed_eq); the ten blocks tile the result (covered), so the result array ends holding that function (final).
-/
import proofs.«143965_j4028679324281_1_alg».proof.Proof.KernelIdealFrameP
import proofs.«143965_j4028679324281_1_alg».proof.Proof.LibSageDense
import Idealize.ShloMosaic.Lib.Pipeline.Value
import Idealize.ShloMosaic.Lib.ValueIdx

set_option maxRecDepth 16384

noncomputable section

namespace Cert.KernelIdeal.Layer1

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The whole-array function the region computes, of the arrays as the region finds them. -/
abbrev G (a x : S50000x128.Idx → EReal) (wl : S128x128.Idx → EReal) (b : S128.Idx → EReal) (wr : S128x128.Idx → EReal) :
    S50000x128.Idx → EReal :=
  SageDense.layerRelu (N := 50000) (K := 128) (C := 128) (Ideal.ofBits .f32 0x00000000#32) a x wl b wr

/-- What the body stores, entry (p, q): the dense layer's value of rows p of the input blocks, rows q of the weight
    blocks and the bias entry q, clipped below at the zero word. -/
theorem pay_apply (x0 x1 : Vec Ideal S5000x128 .f32) (x2 x4 : Vec Ideal S128x128 .f32) (x3 : Vec Ideal S128 .f32)
    (p : Fin 5000) (q : Fin 128) :
    k1_pay1 x0 x1 x2 x4 x3 (ix2 p q)
      = max (SageDense.denseAt (fun k : Fin 128 => x0 (ix2 p k)) (fun k => x1 (ix2 p k)) (fun k => x2 (ix2 q k)) (fun k => x4 (ix2 q k)) (x3 (ix1 q)))
          (Ideal.ofBits .f32 0x00000000#32) := by
  unfold k1_pay1
  dsimp only
  simp only [shapeCast_self]
  exact SageDense.tileRelu_apply (T := 5000) (K := 128) (C := 128) _ rfl _ _ _ _ _ x0 x1 x2 x4 x3 p q

/-- The printed index maps, decided over the grid: the two row-tiled inputs move with the output along the rows, the
    weights and the bias stay at their one block, and the output's block index is the point. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every row block is some point's. -/
theorem idx_onto : ∀ (q0 : Fin 10), ∃ t : Fin cfg1.N, win1_5.index t = ![q0.val, 0] :=
  (by decide +kernel : ∀ (q0 : Fin 10), ∃ t : Fin grid1.N, win1_5.index t = ![q0.val, 0])

/-- WHAT POINT t WRITES BACK is block t of G of the arrays as the region finds them. -/
theorem flushed_eq (c : Dev nD) (t : Fin cfg1.N) :
    (dat1 V c).flushed 5 t = ((cfg1.win 5).blk t).view.read (Elt Ideal)
      (G (V c main_v37) (V c main_v25) (V c main_arg5) (V c main_arg6) (V c main_arg7)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9, e10⟩ := idx_facts t
  funext j
  obtain ⟨p, q, rfl⟩ : ∃ (p : Fin 5000) (q : Fin 128), j = ix2 p q := ⟨j 0, j 1, eq_ix2 j⟩
  refine (pay_apply (iblk1 V c 0 t) (iblk1 V c 1 t) (iblk1 V c 2 t) (iblk1 V c 4 t) (iblk1 V c 3 t) p q).trans ?_
  show _ = max (SageDense.denseAt
      (fun k : Fin 128 => V c main_v37 (ix2 ((((cfg1.win 5).blk t).view.emb (ix2 p q)) 0) k))
      (fun k : Fin 128 => V c main_v25 (ix2 ((((cfg1.win 5).blk t).view.emb (ix2 p q)) 0) k))
      (fun k : Fin 128 => V c main_arg5 (ix2 ((((cfg1.win 5).blk t).view.emb (ix2 p q)) 1) k))
      (fun k : Fin 128 => V c main_arg7 (ix2 ((((cfg1.win 5).blk t).view.emb (ix2 p q)) 1) k))
      (V c main_arg6 (ix1 ((((cfg1.win 5).blk t).view.emb (ix2 p q)) 1)))) (Ideal.ofBits .f32 0x00000000#32)
  have hp : p.val < 5000 := p.isLt
  have hq : q.val < 128 := q.isLt
  have ha : ∀ k : Fin 128, iblk1 V c 0 t (ix2 p k) = V c main_v37 (ix2 ((((cfg1.win 5).blk t).view.emb (ix2 p q)) 0) k) := fun k => by
    show V c main_v37 (((cfg1.win 0).blk t).view.emb (ix2 p k)) = _
    refine congrArg (V c main_v37) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  have hx : ∀ k : Fin 128, iblk1 V c 1 t (ix2 p k) = V c main_v25 (ix2 ((((cfg1.win 5).blk t).view.emb (ix2 p q)) 0) k) := fun k => by
    show V c main_v25 (((cfg1.win 1).blk t).view.emb (ix2 p k)) = _
    refine congrArg (V c main_v25) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  have hwl : ∀ k : Fin 128, iblk1 V c 2 t (ix2 q k) = V c main_arg5 (ix2 ((((cfg1.win 5).blk t).view.emb (ix2 p q)) 1) k) := fun k => by
    show V c main_arg5 (((cfg1.win 2).blk t).view.emb (ix2 q k)) = _
    refine congrArg (V c main_arg5) (funext fun a => Fin.ext ?_)
    match a with
    | ⟨0, _⟩ => show win1_2.index t (0 : Fin 2) * 128 + 1 * q.val = win1_5.index t (1 : Fin 2) * 128 + 1 * q.val; omega
    | ⟨1, _⟩ => show win1_2.index t (1 : Fin 2) * 128 + 1 * k.val = k.val; omega
  have hwr : ∀ k : Fin 128, iblk1 V c 4 t (ix2 q k) = V c main_arg7 (ix2 ((((cfg1.win 5).blk t).view.emb (ix2 p q)) 1) k) := fun k => by
    show V c main_arg7 (((cfg1.win 4).blk t).view.emb (ix2 q k)) = _
    refine congrArg (V c main_arg7) (funext fun a => Fin.ext ?_)
    match a with
    | ⟨0, _⟩ => show win1_4.index t (0 : Fin 2) * 128 + 1 * q.val = win1_5.index t (1 : Fin 2) * 128 + 1 * q.val; omega
    | ⟨1, _⟩ => show win1_4.index t (1 : Fin 2) * 128 + 1 * k.val = k.val; omega
  have hb : iblk1 V c 3 t (ix1 q) = V c main_arg6 (ix1 ((((cfg1.win 5).blk t).view.emb (ix2 p q)) 1)) := by
    show V c main_arg6 (((cfg1.win 3).blk t).view.emb (ix1 q)) = _
    refine congrArg (V c main_arg6) (funext fun a => Fin.ext ?_)
    match a with
    | ⟨0, _⟩ => show win1_3.index t (0 : Fin 1) * 128 + 1 * q.val = win1_5.index t (1 : Fin 2) * 128 + 1 * q.val; omega
  simp only [ha, hx, hwl, hwr, hb]

/-- An index of the result array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v38).slice (win1_5.rect t)).set ↔ _
  rw [View.set_slice_whole, Rect.mem_set_unit]
  exact Iff.rfl

/-- The ten row blocks tile the result: the block that holds row r is the one of point r / 5000. -/
theorem covered (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE RESULT ARRAY after the region: G of the arrays as the region finds them. -/
theorem final (c : Dev nD) : (dat1 V c).arrAt 5 cfg1.N
    = G (V c main_v37) (V c main_v25) (V c main_arg5) (V c main_arg6) (V c main_arg7) :=
  (dat1 V c).arrAt_eq_of_cover 5 _ (fun t _ => flushed_eq V c t) covered

end Cert.KernelIdeal.Layer1

end
-- ==== Proof.Region2.lean ====
/-
  The third region of the idealized kernel: one dense layer (no maximum) onto 64 features, tile by tile.

  The region runs over ten grid points; point t stages rows 5000·t … 5000·t + 4999 of the aggregated array and of the
  features, the whole of both weight arrays and of the bias, and writes back rows 5000·t … 5000·t + 4999 of the result.
  Entry (p, q) of what the body stores is the dense layer's value (SageDense.denseAt) of rows p of the two input
  blocks, rows q of the two weight blocks and entry q of the bias (pay_apply). Read through
  the blocks' positions this is block t of ONE whole-array function of the arrays as the region finds them
  (flushed_eq); the ten blocks tile the result (covered), so the result array ends holding that function (final).
-/
import proofs.«143965_j4028679324281_1_alg».proof.Proof.KernelIdealFrameP
import proofs.«143965_j4028679324281_1_alg».proof.Proof.LibSageDense
import Idealize.ShloMosaic.Lib.Pipeline.Value
import Idealize.ShloMosaic.Lib.ValueIdx

set_option maxRecDepth 16384

noncomputable section

namespace Cert.KernelIdeal.Layer2

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The whole-array function the region computes, of the arrays as the region finds them. -/
abbrev G (a x : S50000x128.Idx → EReal) (wl : S64x128.Idx → EReal) (b : S64.Idx → EReal) (wr : S64x128.Idx → EReal) :
    S50000x64.Idx → EReal :=
  SageDense.layer (N := 50000) (K := 128) (C := 64) a x wl b wr

/-- What the body stores, entry (p, q): the dense layer's value of rows p of the input blocks, rows q of the weight
    blocks and the bias entry q. -/
theorem pay_apply (x0 x1 : Vec Ideal S5000x128 .f32) (x2 x4 : Vec Ideal S64x128 .f32) (x3 : Vec Ideal S64 .f32)
    (p : Fin 5000) (q : Fin 64) :
    k2_pay1 x0 x1 x2 x4 x3 (ix2 p q)
      = SageDense.denseAt (fun k : Fin 128 => x0 (ix2 p k)) (fun k => x1 (ix2 p k)) (fun k => x2 (ix2 q k)) (fun k => x4 (ix2 q k)) (x3 (ix1 q)) := by
  unfold k2_pay1
  dsimp only
  simp only [shapeCast_self]
  exact SageDense.tile_apply (T := 5000) (K := 128) (C := 64) _ rfl _ _ _ _ x0 x1 x2 x4 x3 p q

/-- The printed index maps, decided over the grid: the two row-tiled inputs move with the output along the rows, the
    weights and the bias stay at their one block, and the output's block index is the point. -/
theorem idx_facts : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (1 : Fin 2) = 0 ∧ win2_5.index t (0 : Fin 2) ≤ 9 :=
  (by decide +kernel : ∀ t : Fin grid2.N, _)

/-- Every row block is some point's. -/
theorem idx_onto : ∀ (q0 : Fin 10), ∃ t : Fin cfg2.N, win2_5.index t = ![q0.val, 0] :=
  (by decide +kernel : ∀ (q0 : Fin 10), ∃ t : Fin grid2.N, win2_5.index t = ![q0.val, 0])

/-- WHAT POINT t WRITES BACK is block t of G of the arrays as the region finds them. -/
theorem flushed_eq (c : Dev nD) (t : Fin cfg2.N) :
    (dat2 V c).flushed 5 t = ((cfg2.win 5).blk t).view.read (Elt Ideal)
      (G (V c main_v50) (V c main_v38) (V c main_arg8) (V c main_arg9) (V c main_arg10)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S64x128) hz2, View.ld_unit_zero (S := S64) hz1]
  obtain ⟨e0, e1, e2, e3, e4, e5, e6, e7, e8, e9, e10⟩ := idx_facts t
  funext j
  obtain ⟨p, q, rfl⟩ : ∃ (p : Fin 5000) (q : Fin 64), j = ix2 p q := ⟨j 0, j 1, eq_ix2 j⟩
  refine (pay_apply (iblk2 V c 0 t) (iblk2 V c 1 t) (iblk2 V c 2 t) (iblk2 V c 4 t) (iblk2 V c 3 t) p q).trans ?_
  show _ = SageDense.denseAt
      (fun k : Fin 128 => V c main_v50 (ix2 ((((cfg2.win 5).blk t).view.emb (ix2 p q)) 0) k))
      (fun k : Fin 128 => V c main_v38 (ix2 ((((cfg2.win 5).blk t).view.emb (ix2 p q)) 0) k))
      (fun k : Fin 128 => V c main_arg8 (ix2 ((((cfg2.win 5).blk t).view.emb (ix2 p q)) 1) k))
      (fun k : Fin 128 => V c main_arg10 (ix2 ((((cfg2.win 5).blk t).view.emb (ix2 p q)) 1) k))
      (V c main_arg9 (ix1 ((((cfg2.win 5).blk t).view.emb (ix2 p q)) 1)))
  have hp : p.val < 5000 := p.isLt
  have hq : q.val < 64 := q.isLt
  have ha : ∀ k : Fin 128, iblk2 V c 0 t (ix2 p k) = V c main_v50 (ix2 ((((cfg2.win 5).blk t).view.emb (ix2 p q)) 0) k) := fun k => by
    show V c main_v50 (((cfg2.win 0).blk t).view.emb (ix2 p k)) = _
    refine congrArg (V c main_v50) (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  have hx : ∀ k : Fin 128, iblk2 V c 1 t (ix2 p k) = V c main_v38 (ix2 ((((cfg2.win 5).blk t).view.emb (ix2 p q)) 0) k) := fun k => by
    show V c main_v38 (((cfg2.win 1).blk t).view.emb (ix2 p k)) = _
    refine congrArg (V c main_v38) (funext fun a => Fin.ext ?_)
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  have hwl : ∀ k : Fin 128, iblk2 V c 2 t (ix2 q k) = V c main_arg8 (ix2 ((((cfg2.win 5).blk t).view.emb (ix2 p q)) 1) k) := fun k => by
    show V c main_arg8 (((cfg2.win 2).blk t).view.emb (ix2 q k)) = _
    refine congrArg (V c main_arg8) (funext fun a => Fin.ext ?_)
    match a with
    | ⟨0, _⟩ => show win2_2.index t (0 : Fin 2) * 64 + 1 * q.val = win2_5.index t (1 : Fin 2) * 64 + 1 * q.val; omega
    | ⟨1, _⟩ => show win2_2.index t (1 : Fin 2) * 128 + 1 * k.val = k.val; omega
  have hwr : ∀ k : Fin 128, iblk2 V c 4 t (ix2 q k) = V c main_arg10 (ix2 ((((cfg2.win 5).blk t).view.emb (ix2 p q)) 1) k) := fun k => by
    show V c main_arg10 (((cfg2.win 4).blk t).view.emb (ix2 q k)) = _
    refine congrArg (V c main_arg10) (funext fun a => Fin.ext ?_)
    match a with
    | ⟨0, _⟩ => show win2_4.index t (0 : Fin 2) * 64 + 1 * q.val = win2_5.index t (1 : Fin 2) * 64 + 1 * q.val; omega
    | ⟨1, _⟩ => show win2_4.index t (1 : Fin 2) * 128 + 1 * k.val = k.val; omega
  have hb : iblk2 V c 3 t (ix1 q) = V c main_arg9 (ix1 ((((cfg2.win 5).blk t).view.emb (ix2 p q)) 1)) := by
    show V c main_arg9 (((cfg2.win 3).blk t).view.emb (ix1 q)) = _
    refine congrArg (V c main_arg9) (funext fun a => Fin.ext ?_)
    match a with
    | ⟨0, _⟩ => show win2_3.index t (0 : Fin 1) * 64 + 1 * q.val = win2_5.index t (1 : Fin 2) * 64 + 1 * q.val; omega
  simp only [ha, hx, hwl, hwr, hb]

/-- An index of the result array is in point t's block iff each coordinate is in the block's range on its axis. -/
theorem mem_blk (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v51).slice (win2_5.rect t)).set ↔ _
  rw [View.set_slice_whole, Rect.mem_set_unit]
  exact Iff.rfl

/-- The ten row blocks tile the result: the block that holds row r is the one of point r / 5000. -/
theorem covered (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- THE RESULT ARRAY after the region: G of the arrays as the region finds them. -/
theorem final (c : Dev nD) : (dat2 V c).arrAt 5 cfg2.N
    = G (V c main_v50) (V c main_v38) (V c main_arg8) (V c main_arg9) (V c main_arg10) :=
  (dat2 V c).arrAt_eq_of_cover 5 _ (fun t _ => flushed_eq V c t) covered

end Cert.KernelIdeal.Layer2

end
-- ==== Proof.RefLayers.lean ====
/-
  The reference's three dense layers, each as ONE whole-array function of its inputs.

  The reference computes each layer on whole arrays: the aggregated features multiplied into the transposed first
  weights, the bias broadcast over the rows added, the features multiplied into the transposed second weights added
  last, and after the first two layers a maximum against a broadcast zero. Stage by stage (the generated read-back of
  its run names every operation's value) each layer's result is SageDense.layerRelu / SageDense.layer of the
  aggregated array, the previous layer's result, and the layer's weights and bias: what lies between two layers — the
  gather, the scatter-add and the scaling by the inverse degree — stays folded in the stage names.
-/
import proofs.«143965_j4028679324281_1_alg».proof.Proof.Gen.ReferenceIdeal.Read
import proofs.«143965_j4028679324281_1_alg».proof.Proof.LibSageDense

noncomputable section

namespace Cert.ReferenceIdeal.RefLayers

open Cert.ReferenceIdeal Cert.ReferenceIdeal.Gen Cert.ReferenceIdeal.Read Idealize.ShloMosaic Idealize.ShloMosaic.TcCoe Idealize.SL.Sem

/-- The zero word both programs clip against. -/
abbrev zero : EReal := Ideal.ofBits .f32 0x00000000#32

/-- The first layer: the maximum against zero of the dense layer of the aggregated input features and the input
    features themselves. -/
theorem layer1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v33 (F := Ideal) x0 x1 x2 x3 x4
      = SageDense.layerRelu (N := 50000) (K := 128) (C := 128) zero (val_main_v24 (F := Ideal) x0 x1) x0 x2 x3 x4 := by
  unfold val_main_v33 val_main_v32 val_main_v31 val_main_v30 val_main_v29 val_main_v28 val_main_v27 val_main_v26 val_main_v25
    val_main_call0_v0 val_main_call0_cst
  exact SageDense.refRelu_eq_layerRelu (N := 50000) (K := 128) (C := 128) _ rfl _ _ _ _ _ (val_main_v24 (F := Ideal) x0 x1) x0 x2 x4 x3

/-- The second layer, of the aggregated first-layer result and that result. -/
theorem layer2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v54 (F := Ideal) x0 x1 x2 x3 x4 x5 x6 x7
      = SageDense.layerRelu (N := 50000) (K := 128) (C := 128) zero (val_main_v45 (F := Ideal) x0 x1 x2 x3 x4)
          (val_main_v33 (F := Ideal) x0 x1 x2 x3 x4) x5 x6 x7 := by
  unfold val_main_v54 val_main_v53 val_main_v52 val_main_v51 val_main_v50 val_main_v49 val_main_v48 val_main_v47 val_main_v46
    val_main_call1_v0 val_main_call1_cst
  exact SageDense.refRelu_eq_layerRelu (N := 50000) (K := 128) (C := 128) _ rfl _ _ _ _ _ (val_main_v45 (F := Ideal) x0 x1 x2 x3 x4)
    (val_main_v33 (F := Ideal) x0 x1 x2 x3 x4) x5 x7 x6

/-- The third layer (no maximum), of the aggregated second-layer result and that result. -/
theorem layer3 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S64x128, .f32⟩ : BufTy).Contents (Elt Ideal)) (x9 : (⟨S64, .f32⟩ : BufTy).Contents (Elt Ideal)) (x10 : (⟨S64x128, .f32⟩ : BufTy).Contents (Elt Ideal)) :
    val_main_v74 (F := Ideal) x0 x1 x2 x3 x4 x5 x6 x7 x8 x9 x10
      = SageDense.layer (N := 50000) (K := 128) (C := 64) (val_main_v66 (F := Ideal) x0 x1 x2 x3 x4 x5 x6 x7)
          (val_main_v54 (F := Ideal) x0 x1 x2 x3 x4 x5 x6 x7) x8 x9 x10 := by
  unfold val_main_v74 val_main_v73 val_main_v72 val_main_v71 val_main_v70 val_main_v69 val_main_v68 val_main_v67
  exact SageDense.ref_eq_layer (N := 50000) (K := 128) (C := 64) _ rfl _ _ _ (val_main_v66 (F := Ideal) x0 x1 x2 x3 x4 x5 x6 x7)
    (val_main_v54 (F := Ideal) x0 x1 x2 x3 x4 x5 x6 x7) x8 x10 x9

end Cert.ReferenceIdeal.RefLayers

end
-- ==== Proof.KernelValue.lean ====
/-
  What the idealized kernel returns, as the reference's function of the arguments.

  The program is a three-layer graph network. Between the layers it works on whole arrays: from the edge list it
  takes the source and the destination node of every edge and, once, the inverse of every node's in-degree (the
  degree clipped below at one); before each layer it gathers the current features at the edges' sources, adds them up
  at the edges' destinations and scales every row by the node's inverse degree: the mean of the neighbours'
  features. Each layer is one pipelined region: from the aggregated array, the current features, two weight arrays and
  a bias it writes the next features — the dense layer of the two inputs, after the first two layers clipped below
  at zero.

  The contents of the buffers are followed from the launch to the return, boundary by boundary. After the first
  stretch of whole-array operations the edge endpoints, the inverse degrees and the aggregated input features are the
  reference's stages of the same names, read at the launch contents of the arguments, and no argument has been
  written. A region replaces its result array by the layer function of the arrays it finds and keeps every buffer
  that is not one of its arrays; a stretch of whole-array operations computes the next aggregated array from the
  previous region's result and the edge data and keeps everything it does not write. The reference computes the same
  stage functions, so at each boundary the aggregated array and the features are the reference's stages, and the
  array returned after the third region is the reference's last stage of the arguments.
-/
import proofs.«143965_j4028679324281_1_alg».proof.Proof.KernelRun
import proofs.«143965_j4028679324281_1_alg».proof.Proof.Region0
import proofs.«143965_j4028679324281_1_alg».proof.Proof.Region1
import proofs.«143965_j4028679324281_1_alg».proof.Proof.Region2
import proofs.«143965_j4028679324281_1_alg».proof.Proof.RefLayers

set_option maxRecDepth 16384

noncomputable section

namespace Cert.KernelIdeal.Value

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The launch contents and the reference's stages read at them -/

/-- The launch contents of a buffer of core c's TensorCore. -/
abbrev arg (c : Dev nD) (b : Ref sig .tc) : Buf (Elt Ideal) ((c.tc : Thread nD τ).loc b) := m ((c.tc : Thread nD τ).loc b)

/-- The source node of every edge (row 0 of the edge list). -/
abbrev srcIdx (c : Dev nD) := Cert.ReferenceIdeal.Read.val_main_v1 (F := Ideal) (arg m c main_arg1)
/-- The destination node of every edge (row 1 of the edge list). -/
abbrev dstIdx (c : Dev nD) := Cert.ReferenceIdeal.Read.val_main_v3 (F := Ideal) (arg m c main_arg1)
/-- One over every node's in-degree, the degree clipped below at one, as a column. -/
abbrev invDeg (c : Dev nD) := Cert.ReferenceIdeal.Read.val_main_v12 (F := Ideal) (arg m c main_arg1)
/-- The input features averaged over every node's in-neighbours. -/
abbrev agg0 (c : Dev nD) := Cert.ReferenceIdeal.Read.val_main_v24 (F := Ideal) (arg m c main_arg0) (arg m c main_arg1)
/-- The first layer's features. -/
abbrev feat1 (c : Dev nD) := Cert.ReferenceIdeal.Read.val_main_v33 (F := Ideal) (arg m c main_arg0) (arg m c main_arg1) (arg m c main_arg2) (arg m c main_arg3) (arg m c main_arg4)
/-- The first layer's features averaged over the in-neighbours. -/
abbrev agg1 (c : Dev nD) := Cert.ReferenceIdeal.Read.val_main_v45 (F := Ideal) (arg m c main_arg0) (arg m c main_arg1) (arg m c main_arg2) (arg m c main_arg3) (arg m c main_arg4)
/-- The second layer's features. -/
abbrev feat2 (c : Dev nD) := Cert.ReferenceIdeal.Read.val_main_v54 (F := Ideal) (arg m c main_arg0) (arg m c main_arg1) (arg m c main_arg2) (arg m c main_arg3) (arg m c main_arg4) (arg m c main_arg5) (arg m c main_arg6) (arg m c main_arg7)
/-- The second layer's features averaged over the in-neighbours. -/
abbrev agg2 (c : Dev nD) := Cert.ReferenceIdeal.Read.val_main_v66 (F := Ideal) (arg m c main_arg0) (arg m c main_arg1) (arg m c main_arg2) (arg m c main_arg3) (arg m c main_arg4) (arg m c main_arg5) (arg m c main_arg6) (arg m c main_arg7)

/-- The two layer functions respect equality of each of their five arrays. -/
theorem layerRelu_congr {N K C : ℕ} (z : EReal) {a a' x x' : (⟨2, ![N, K]⟩ : Shape).Idx → EReal}
    {wl wl' wr wr' : (⟨2, ![C, K]⟩ : Shape).Idx → EReal} {b b' : (⟨1, ![C]⟩ : Shape).Idx → EReal}
    (ha : a = a') (hx : x = x') (hwl : wl = wl') (hb : b = b') (hwr : wr = wr') :
    SageDense.layerRelu z a x wl b wr = SageDense.layerRelu z a' x' wl' b' wr' := by
  subst ha hx hwl hb hwr; rfl
theorem layer_congr {N K C : ℕ} {a a' x x' : (⟨2, ![N, K]⟩ : Shape).Idx → EReal}
    {wl wl' wr wr' : (⟨2, ![C, K]⟩ : Shape).Idx → EReal} {b b' : (⟨1, ![C]⟩ : Shape).Idx → EReal}
    (ha : a = a') (hx : x = x') (hwl : wl = wl') (hb : b = b') (hwr : wr = wr') :
    SageDense.layer a x wl b wr = SageDense.layer a' x' wl' b' wr' := by
  subst ha hx hwl hb hwr; rfl

/-! ## After the first stretch of whole-array operations

The operations write their own result buffers only, so each argument still holds its launch contents; the edge
endpoints, the inverse degrees and the aggregated input features are the operations' functions applied in order to
the launch contents of the features and of the edge list: the reference's stages, operation for operation. -/

theorem at1_srcIdx (c : Dev nD) : W1 m ρ c (Proc.devRef .tc main_v1) = srcIdx m c := by
  show StableHlo.after hostOps0 _ (Proc.devRef .tc main_v1) = _
  after_results
  rfl
theorem at1_dstIdx (c : Dev nD) : W1 m ρ c (Proc.devRef .tc main_v3) = dstIdx m c := by
  show StableHlo.after hostOps0 _ (Proc.devRef .tc main_v3) = _
  after_results
  rfl
theorem at1_invDeg (c : Dev nD) : W1 m ρ c (Proc.devRef .tc main_v12) = invDeg m c := by
  show StableHlo.after hostOps0 _ (Proc.devRef .tc main_v12) = _
  after_results
  rfl
theorem at1_agg (c : Dev nD) : W1 m ρ c (Proc.devRef .tc main_v24) = agg0 m c := by
  show StableHlo.after hostOps0 _ (Proc.devRef .tc main_v24) = _
  after_results_simp
  rfl
theorem at1_arg0 (c : Dev nD) : W1 m ρ c (Proc.devRef .tc main_arg0) = arg m c main_arg0 := by
  show StableHlo.after hostOps0 _ (Proc.devRef .tc main_arg0) = _
  after_results <;> rfl
theorem at1_arg2 (c : Dev nD) : W1 m ρ c (Proc.devRef .tc main_arg2) = arg m c main_arg2 := by
  show StableHlo.after hostOps0 _ (Proc.devRef .tc main_arg2) = _
  after_results <;> rfl
theorem at1_arg3 (c : Dev nD) : W1 m ρ c (Proc.devRef .tc main_arg3) = arg m c main_arg3 := by
  show StableHlo.after hostOps0 _ (Proc.devRef .tc main_arg3) = _
  after_results <;> rfl
theorem at1_arg4 (c : Dev nD) : W1 m ρ c (Proc.devRef .tc main_arg4) = arg m c main_arg4 := by
  show StableHlo.after hostOps0 _ (Proc.devRef .tc main_arg4) = _
  after_results <;> rfl
theorem at1_arg5 (c : Dev nD) : W1 m ρ c (Proc.devRef .tc main_arg5) = arg m c main_arg5 := by
  show StableHlo.after hostOps0 _ (Proc.devRef .tc main_arg5) = _
  after_results <;> rfl
theorem at1_arg6 (c : Dev nD) : W1 m ρ c (Proc.devRef .tc main_arg6) = arg m c main_arg6 := by
  show StableHlo.after hostOps0 _ (Proc.devRef .tc main_arg6) = _
  after_results <;> rfl
theorem at1_arg7 (c : Dev nD) : W1 m ρ c (Proc.devRef .tc main_arg7) = arg m c main_arg7 := by
  show StableHlo.after hostOps0 _ (Proc.devRef .tc main_arg7) = _
  after_results <;> rfl
theorem at1_arg8 (c : Dev nD) : W1 m ρ c (Proc.devRef .tc main_arg8) = arg m c main_arg8 := by
  show StableHlo.after hostOps0 _ (Proc.devRef .tc main_arg8) = _
  after_results <;> rfl
theorem at1_arg9 (c : Dev nD) : W1 m ρ c (Proc.devRef .tc main_arg9) = arg m c main_arg9 := by
  show StableHlo.after hostOps0 _ (Proc.devRef .tc main_arg9) = _
  after_results <;> rfl
theorem at1_arg10 (c : Dev nD) : W1 m ρ c (Proc.devRef .tc main_arg10) = arg m c main_arg10 := by
  show StableHlo.after hostOps0 _ (Proc.devRef .tc main_arg10) = _
  after_results <;> rfl

/-! ## After the first region

The region's result array holds the first layer's function of the arrays the region found: the aggregated input
features, the input features, the first layer's weights and bias, which are the reference's stage and the launch
contents; so it holds the reference's first-layer features. The edge data and the later layers' arguments are
none of the region's arrays and are kept. -/

theorem at2_feat (c : Dev nD) : W2 m ρ c (Proc.devRef .tc main_v25) = feat1 m c := by
  refine (W2_arr m ρ c 5).trans ((Layer0.final (V1 m ρ) c).trans ?_)
  refine Eq.trans ?_ (Cert.ReferenceIdeal.RefLayers.layer1 (arg m c main_arg0) (arg m c main_arg1) (arg m c main_arg2) (arg m c main_arg3) (arg m c main_arg4)).symm
  exact layerRelu_congr (N := 50000) (K := 128) (C := 128) _ (at1_agg m ρ c) (at1_arg0 m ρ c) (at1_arg2 m ρ c) (at1_arg3 m ρ c) (at1_arg4 m ρ c)
theorem at2_srcIdx (c : Dev nD) : W2 m ρ c (Proc.devRef .tc main_v1) = srcIdx m c :=
  (W2_of_ne m ρ c main_v1 (by decide)).trans (at1_srcIdx m ρ c)
theorem at2_dstIdx (c : Dev nD) : W2 m ρ c (Proc.devRef .tc main_v3) = dstIdx m c :=
  (W2_of_ne m ρ c main_v3 (by decide)).trans (at1_dstIdx m ρ c)
theorem at2_invDeg (c : Dev nD) : W2 m ρ c (Proc.devRef .tc main_v12) = invDeg m c :=
  (W2_of_ne m ρ c main_v12 (by decide)).trans (at1_invDeg m ρ c)
theorem at2_arg5 (c : Dev nD) : W2 m ρ c (Proc.devRef .tc main_arg5) = arg m c main_arg5 :=
  (W2_of_ne m ρ c main_arg5 (by decide)).trans (at1_arg5 m ρ c)
theorem at2_arg6 (c : Dev nD) : W2 m ρ c (Proc.devRef .tc main_arg6) = arg m c main_arg6 :=
  (W2_of_ne m ρ c main_arg6 (by decide)).trans (at1_arg6 m ρ c)
theorem at2_arg7 (c : Dev nD) : W2 m ρ c (Proc.devRef .tc main_arg7) = arg m c main_arg7 :=
  (W2_of_ne m ρ c main_arg7 (by decide)).trans (at1_arg7 m ρ c)
theorem at2_arg8 (c : Dev nD) : W2 m ρ c (Proc.devRef .tc main_arg8) = arg m c main_arg8 :=
  (W2_of_ne m ρ c main_arg8 (by decide)).trans (at1_arg8 m ρ c)
theorem at2_arg9 (c : Dev nD) : W2 m ρ c (Proc.devRef .tc main_arg9) = arg m c main_arg9 :=
  (W2_of_ne m ρ c main_arg9 (by decide)).trans (at1_arg9 m ρ c)
theorem at2_arg10 (c : Dev nD) : W2 m ρ c (Proc.devRef .tc main_arg10) = arg m c main_arg10 :=
  (W2_of_ne m ρ c main_arg10 (by decide)).trans (at1_arg10 m ρ c)

/-! ## After the second stretch of whole-array operations

The operations gather the first-layer features at the edges' sources, add them up at the destinations and scale by
the inverse degrees, reading the region's result and the edge data found above: the reference's aggregated
first-layer features. They write neither the first-layer features, nor the edge data, nor an argument. -/

theorem at3_agg (c : Dev nD) : W3 m ρ c (Proc.devRef .tc main_v37) = agg1 m c := by
  show StableHlo.after hostOps1 _ (Proc.devRef .tc main_v37) = _
  after_results_simp
  rw [at2_feat m ρ c, at2_srcIdx m ρ c, at2_dstIdx m ρ c, at2_invDeg m ρ c]
  rfl
theorem at3_feat (c : Dev nD) : W3 m ρ c (Proc.devRef .tc main_v25) = feat1 m c := by
  refine Eq.trans ?_ (at2_feat m ρ c)
  show StableHlo.after hostOps1 _ (Proc.devRef .tc main_v25) = _
  after_results <;> rfl
theorem at3_srcIdx (c : Dev nD) : W3 m ρ c (Proc.devRef .tc main_v1) = srcIdx m c := by
  refine Eq.trans ?_ (at2_srcIdx m ρ c)
  show StableHlo.after hostOps1 _ (Proc.devRef .tc main_v1) = _
  after_results <;> rfl
theorem at3_dstIdx (c : Dev nD) : W3 m ρ c (Proc.devRef .tc main_v3) = dstIdx m c := by
  refine Eq.trans ?_ (at2_dstIdx m ρ c)
  show StableHlo.after hostOps1 _ (Proc.devRef .tc main_v3) = _
  after_results <;> rfl
theorem at3_invDeg (c : Dev nD) : W3 m ρ c (Proc.devRef .tc main_v12) = invDeg m c := by
  refine Eq.trans ?_ (at2_invDeg m ρ c)
  show StableHlo.after hostOps1 _ (Proc.devRef .tc main_v12) = _
  after_results <;> rfl
theorem at3_arg5 (c : Dev nD) : W3 m ρ c (Proc.devRef .tc main_arg5) = arg m c main_arg5 := by
  refine Eq.trans ?_ (at2_arg5 m ρ c)
  show StableHlo.after hostOps1 _ (Proc.devRef .tc main_arg5) = _
  after_results <;> rfl
theorem at3_arg6 (c : Dev nD) : W3 m ρ c (Proc.devRef .tc main_arg6) = arg m c main_arg6 := by
  refine Eq.trans ?_ (at2_arg6 m ρ c)
  show StableHlo.after hostOps1 _ (Proc.devRef .tc main_arg6) = _
  after_results <;> rfl
theorem at3_arg7 (c : Dev nD) : W3 m ρ c (Proc.devRef .tc main_arg7) = arg m c main_arg7 := by
  refine Eq.trans ?_ (at2_arg7 m ρ c)
  show StableHlo.after hostOps1 _ (Proc.devRef .tc main_arg7) = _
  after_results <;> rfl
theorem at3_arg8 (c : Dev nD) : W3 m ρ c (Proc.devRef .tc main_arg8) = arg m c main_arg8 := by
  refine Eq.trans ?_ (at2_arg8 m ρ c)
  show StableHlo.after hostOps1 _ (Proc.devRef .tc main_arg8) = _
  after_results <;> rfl
theorem at3_arg9 (c : Dev nD) : W3 m ρ c (Proc.devRef .tc main_arg9) = arg m c main_arg9 := by
  refine Eq.trans ?_ (at2_arg9 m ρ c)
  show StableHlo.after hostOps1 _ (Proc.devRef .tc main_arg9) = _
  after_results <;> rfl
theorem at3_arg10 (c : Dev nD) : W3 m ρ c (Proc.devRef .tc main_arg10) = arg m c main_arg10 := by
  refine Eq.trans ?_ (at2_arg10 m ρ c)
  show StableHlo.after hostOps1 _ (Proc.devRef .tc main_arg10) = _
  after_results <;> rfl

/-! ## After the second region

Its result array holds the second layer's function of the aggregated first-layer features, the first-layer features
and the second layer's weights and bias: the reference's second-layer features. The edge data and the third layer's
arguments are kept. -/

theorem at4_feat (c : Dev nD) : W4 m ρ c (Proc.devRef .tc main_v38) = feat2 m c := by
  refine (W4_arr m ρ c 5).trans ((Layer1.final (V3 m ρ) c).trans ?_)
  refine Eq.trans ?_ (Cert.ReferenceIdeal.RefLayers.layer2 (arg m c main_arg0) (arg m c main_arg1) (arg m c main_arg2) (arg m c main_arg3) (arg m c main_arg4) (arg m c main_arg5) (arg m c main_arg6) (arg m c main_arg7)).symm
  exact layerRelu_congr (N := 50000) (K := 128) (C := 128) _ (at3_agg m ρ c) (at3_feat m ρ c) (at3_arg5 m ρ c) (at3_arg6 m ρ c) (at3_arg7 m ρ c)
theorem at4_srcIdx (c : Dev nD) : W4 m ρ c (Proc.devRef .tc main_v1) = srcIdx m c :=
  (W4_of_ne m ρ c main_v1 (by decide)).trans (at3_srcIdx m ρ c)
theorem at4_dstIdx (c : Dev nD) : W4 m ρ c (Proc.devRef .tc main_v3) = dstIdx m c :=
  (W4_of_ne m ρ c main_v3 (by decide)).trans (at3_dstIdx m ρ c)
theorem at4_invDeg (c : Dev nD) : W4 m ρ c (Proc.devRef .tc main_v12) = invDeg m c :=
  (W4_of_ne m ρ c main_v12 (by decide)).trans (at3_invDeg m ρ c)
theorem at4_arg8 (c : Dev nD) : W4 m ρ c (Proc.devRef .tc main_arg8) = arg m c main_arg8 :=
  (W4_of_ne m ρ c main_arg8 (by decide)).trans (at3_arg8 m ρ c)
theorem at4_arg9 (c : Dev nD) : W4 m ρ c (Proc.devRef .tc main_arg9) = arg m c main_arg9 :=
  (W4_of_ne m ρ c main_arg9 (by decide)).trans (at3_arg9 m ρ c)
theorem at4_arg10 (c : Dev nD) : W4 m ρ c (Proc.devRef .tc main_arg10) = arg m c main_arg10 :=
  (W4_of_ne m ρ c main_arg10 (by decide)).trans (at3_arg10 m ρ c)

/-! ## After the third stretch of whole-array operations

The same aggregation of the second-layer features: the reference's aggregated second-layer features; the
second-layer features and the third layer's arguments are not written. -/

theorem at5_agg (c : Dev nD) : W5 m ρ c (Proc.devRef .tc main_v50) = agg2 m c := by
  show StableHlo.after hostOps2 _ (Proc.devRef .tc main_v50) = _
  after_results_simp
  rw [at4_feat m ρ c, at4_srcIdx m ρ c, at4_dstIdx m ρ c, at4_invDeg m ρ c]
  rfl
theorem at5_feat (c : Dev nD) : W5 m ρ c (Proc.devRef .tc main_v38) = feat2 m c := by
  refine Eq.trans ?_ (at4_feat m ρ c)
  show StableHlo.after hostOps2 _ (Proc.devRef .tc main_v38) = _
  after_results <;> rfl
theorem at5_arg8 (c : Dev nD) : W5 m ρ c (Proc.devRef .tc main_arg8) = arg m c main_arg8 := by
  refine Eq.trans ?_ (at4_arg8 m ρ c)
  show StableHlo.after hostOps2 _ (Proc.devRef .tc main_arg8) = _
  after_results <;> rfl
theorem at5_arg9 (c : Dev nD) : W5 m ρ c (Proc.devRef .tc main_arg9) = arg m c main_arg9 := by
  refine Eq.trans ?_ (at4_arg9 m ρ c)
  show StableHlo.after hostOps2 _ (Proc.devRef .tc main_arg9) = _
  after_results <;> rfl
theorem at5_arg10 (c : Dev nD) : W5 m ρ c (Proc.devRef .tc main_arg10) = arg m c main_arg10 := by
  refine Eq.trans ?_ (at4_arg10 m ρ c)
  show StableHlo.after hostOps2 _ (Proc.devRef .tc main_arg10) = _
  after_results <;> rfl

/-! ## The returned array

The third region's result array holds the third layer's function (no clipping) of the aggregated second-layer
features, the second-layer features and the third layer's weights and bias: the reference's last stage. -/

theorem result (c : Dev nD) :
    W6 m ρ c (Proc.devRef .tc main_v51)
      = Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W6_arr m ρ c 5).trans ((Layer2.final (V5 m ρ) c).trans ?_)
  refine Eq.trans ?_ (Cert.ReferenceIdeal.RefLayers.layer3 (arg m c main_arg0) (arg m c main_arg1) (arg m c main_arg2) (arg m c main_arg3) (arg m c main_arg4) (arg m c main_arg5) (arg m c main_arg6) (arg m c main_arg7) (arg m c main_arg8) (arg m c main_arg9) (arg m c main_arg10)).symm
  exact layer_congr (N := 50000) (K := 128) (C := 64) (at5_agg m ρ c) (at5_feat m ρ c) (at5_arg8 m ρ c) (at5_arg9 m ρ c) (at5_arg10 m ρ c)

end Cert.KernelIdeal.Value

end
-- ==== Proof.lean ====
/- The proof of `Cert.Claim`: a three-layer mean-aggregating graph network, its dense layers computed tile by tile
   in three pipelined regions, against the same network written with whole-array operations.

   Both programs aggregate identically: the neighbours' rows gathered, scatter-added per target node and scaled by
   the inverse clipped degree, by the same host operations. They differ in the dense layer
       (agg · Wlᵀ + h · Wrᵀ) + b   (tiles of 5000 rows, the bias added last)
   against
       (agg · Wlᵀ + b) + h · Wrᵀ   (whole arrays, the second product added last),
   followed after the first two layers by a maximum against zero in both. On the extended reals addition is
   commutative and associative, so the two are one function of the arrays (Proof/LibSageDense.lean), and no finiteness of
   the inputs is used. Each region's result array is that function of the arrays the region finds
   (Proof/Region0.lean, Region1.lean, Region2.lean); each reference layer is the same function of the reference's
   stages (Proof/RefLayers.lean); the returned array, read back through the three stretches of host operations and
   the three regions, is the reference's stage function of the arguments (Proof/KernelValue.lean) over the kernel's
   run with its result named (Proof/KernelRun.lean). The idealization rewrote nothing, so `preserves` is trivial; the
   three frames are the generated frame certificates and the reference's generated run. -/
import proofs.«143965_j4028679324281_1_alg».proof.Defs
import proofs.«143965_j4028679324281_1_alg».proof.Proof.Gen.Kernel
import proofs.«143965_j4028679324281_1_alg».proof.Proof.KernelFrameP
import proofs.«143965_j4028679324281_1_alg».proof.Proof.Gen.KernelIdeal
import proofs.«143965_j4028679324281_1_alg».proof.Proof.KernelIdealFrameP
import proofs.«143965_j4028679324281_1_alg».proof.Proof.Gen.ReferenceIdeal
import proofs.«143965_j4028679324281_1_alg».proof.Proof.Gen.Pre_finite_inputs
import proofs.«143965_j4028679324281_1_alg».proof.Proof.Gen.ReferenceIdeal.Run
import proofs.«143965_j4028679324281_1_alg».proof.Proof.Gen.ReferenceIdeal.Read
import proofs.«143965_j4028679324281_1_alg».proof.Proof.KernelRun
import proofs.«143965_j4028679324281_1_alg».proof.Proof.KernelValue
import Idealize.ShloMosaic.Adequacy
import Idealize.ShloMosaic.Init

noncomputable section

namespace Cert.Proof

open Idealize.ShloMosaic Idealize.SL.Sem

/-- The word-level kernel runs and leaves its arguments: the frame certificate of its three regions. -/
theorem frame_k : Cert.frame_Kernel := fun m ρ _ => Cert.Kernel.GenP.frame m ρ

/-- The idealized kernel runs and leaves its arguments. -/
theorem frame_ki : Cert.frame_KernelIdeal := fun m ρ _ => Cert.KernelIdeal.GenP.frame m ρ

/-- The idealized reference runs and leaves its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same array: the kernel's returned array is
    the reference's last stage function of the arguments, which is what the reference's run leaves. -/
theorem algebraic : Cert.algebraic_KernelIdeal_ReferenceIdeal := by
  intro m ρ m' ρ' _ hagree
  refine ⟨fun c => Cert.KernelIdeal.GenP.W6 m ρ c (Proc.devRef .tc Cert.KernelIdeal.main_v51),
    Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  exact (Cert.KernelIdeal.Value.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
